-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S200x10000 : Shape := ⟨2, ![200, 10000]⟩
abbrev S200x128 : Shape := ⟨2, ![200, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x128_S200x128_0_0 : ∀ a, (![0, 0] : Fin 2 → Nat) a + S200x128.size a ≤ S200x128.size a
  h_S200x128 : 0 < S200x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Pieces.lean ====
/-
  What one run of the body leaves behind, as values of what it loaded.

  At the grid's first point the body computes the table of hidden rows from the features, the weights and the
  bias, parks it in the scratch, reads it straight back and multiplies the point's block of adjacency rows
  against it; at every later point it only does the multiplication, against the table it finds in the scratch.
  So the scratch ends the first point at the table (`k0_pay1`), is untouched afterwards, and the output block of
  every point is the second payload (`k0_pay2`) of the adjacency block, the table and the slope.
-/
import proofs.«138809_g11579231830147_cont_sun_c4_469_26_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point: the output block is the product of the adjacency block with the table found in the scratch,
    rectified. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .bf16) (harg7 : arg7.IsWhole) (hc0 : ¬cond0_0 i)
    (x0 : Vec F S10000x128 .f32) (x1 : Vec F S128x128 .f32) (x2 : Vec F S1x128 .f32) (x3 : Vec F S1x1 .f32) (x4 : Vec F S200x10000 .f32) (xs0 : Vec F S10000x128 .bf16) :
    out0_B_5 c i arg1 harg1 arg2 harg2 arg3 harg3 arg4 harg4 arg5 harg5 arg6 harg6 arg7 harg7 hc0 x0 x1 x2 x3 x4 xs0 = k0_pay2 x4 xs0 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz]
  simp only [View.readAt_eq_ld, harg5.read_unread, harg7.read_unread, harg4.read_unread,
    View.ld_unit_zero (S := S200x10000) hz, View.ld_unit_zero (S := S10000x128) hz, View.ld_unit_zero (S := S1x1) hz]

/-- The first point leaves the table of hidden rows in the scratch. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .bf16) (harg7 : arg7.IsWhole) (hc0 : cond0_0 i)
    (x0 : Vec F S10000x128 .f32) (x1 : Vec F S128x128 .f32) (x2 : Vec F S1x128 .f32) (x3 : Vec F S1x1 .f32) (x4 : Vec F S200x10000 .f32) :
    sout0_A_0 c i arg1 harg1 arg2 harg2 arg3 harg3 arg4 harg4 arg5 harg5 arg6 harg6 arg7 harg7 hc0 x0 x1 x2 x3 x4 = k0_pay1 x0 x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread,
    View.ld_unit_zero (S := S10000x128) hz, View.ld_unit_zero (S := S128x128) hz, View.ld_unit_zero (S := S1x128) hz]

/-- The first point's output block: the same product, against the table it has just stored and read back. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .bf16) (harg7 : arg7.IsWhole) (hc0 : cond0_0 i)
    (x0 : Vec F S10000x128 .f32) (x1 : Vec F S128x128 .f32) (x2 : Vec F S1x128 .f32) (x3 : Vec F S1x1 .f32) (x4 : Vec F S200x10000 .f32) :
    out0_A_5 c i arg1 harg1 arg2 harg2 arg3 harg3 arg4 harg4 arg5 harg5 arg6 harg6 arg7 harg7 hc0 x0 x1 x2 x3 x4 = k0_pay2 x4 (k0_pay1 x0 x1 x2) x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread, harg5.read_unread,
    View.ld_unit_zero (S := S10000x128) hz, View.ld_unit_zero (S := S128x128) hz, View.ld_unit_zero (S := S1x128) hz,
    View.ld_unit_zero (S := S200x10000) hz, View.ld_unit_zero (S := S1x1) hz]

end Cert.KernelIdeal.Pieces

end
-- ==== Proof.Carry.lean ====
/-
  What the scratch and the output's staging buffer hold after each grid point.

  The table of hidden rows is written once, at the first point, from the three whole-array windows (features,
  weights, bias); no later point stores into the scratch, so by induction on the point it holds that same table
  after every point. Hence the output block of EVERY point, first or later, is the rectified product of the
  point's block of adjacency rows with that one table.
-/
import proofs.«138809_g11579231830147_cont_sun_c4_469_26_alg».proof.Proof.Pieces

set_option maxRecDepth 16384

noncomputable section

open Idealize.ShloMosaic Idealize.ShloMosaic.TcCoe Idealize.SL.Sem

namespace Cert.KernelIdeal.Carry

open Cert.KernelIdeal Cert.KernelIdeal.Gen

variable {F : FTy → Type} [FloatOps F]
variable (m : (ℓ : Loc nD τ sig) → Buf (Elt F) ℓ)

theorem zero_lt_N : 0 < cfg0.N := by rw [show cfg0.N = 50 from N_0]; decide

/-- The table of hidden rows: the first payload of the features, the weights and the bias as the region finds them
    (read through the first point's blocks, which are the whole arrays). -/
def table (c : Dev nD) : Vec F S10000x128 .bf16 :=
  k0_pay1 (iblk m c 0 ⟨0, zero_lt_N⟩) (iblk m c 1 ⟨0, zero_lt_N⟩) (iblk m c 2 ⟨0, zero_lt_N⟩)

/-- The first point stores the table. -/
theorem scratch_first (c : Dev nD) (h : 0 < cfg0.N) :
    (outsAt0 m c (⟨0, h⟩ : Fin cfg0.N).val (⟨0, h⟩ : Fin cfg0.N).isLt).2 = table m c := by
  rw [outsAt0_A m c ⟨0, h⟩ (Nat.zero_mod 50)]
  dsimp only
  show _ = k0_pay1 (iblk m c 0 ⟨0, h⟩) (iblk m c 1 ⟨0, h⟩) (iblk m c 2 ⟨0, h⟩)
  exact Pieces.scratch_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr (Nat.zero_mod 50)) (iblk m c 0 ⟨0, h⟩) (iblk m c 1 ⟨0, h⟩) (iblk m c 2 ⟨0, h⟩) (iblk m c 3 ⟨0, h⟩) (iblk m c 4 ⟨0, h⟩)

/-- After every point the scratch holds the table: no later point stores into it. -/
theorem scratch_eq (c : Dev nD) (t : Fin cfg0.N) : (outsAt0 m c t.val t.isLt).2 = table m c := by
  have hN : cfg0.N = 50 := N_0
  obtain ⟨n, hn⟩ := t
  induction n with
  | zero => exact scratch_first m c hn
  | succ n ih =>
    have hB : ¬(⟨n + 1, hn⟩ : Fin cfg0.N).val % 50 = 0 := by dsimp only; omega
    rw [outsAt0_B m c ⟨n + 1, hn⟩ hB]
    unfold sout0_B_0
    exact ih (Nat.lt_of_succ_lt hn)

/-- After point `t` the output's staging buffer holds the rectified product of the point's adjacency rows with the table. -/
theorem out_eq (c : Dev nD) (t : Fin cfg0.N) :
    (outsAt0 m c t.val t.isLt).1 = k0_pay2 (iblk m c 4 t) (table m c) (iblk m c 3 t) := by
  have hN : cfg0.N = 50 := N_0
  by_cases h0 : t.val % 50 = 0
  · obtain ⟨n, hn⟩ := t
    obtain rfl : n = 0 := by dsimp only at h0; omega
    rw [outsAt0_A m c ⟨0, hn⟩ h0]
    dsimp only
    show _ = k0_pay2 (iblk m c 4 ⟨0, hn⟩) (k0_pay1 (iblk m c 0 ⟨0, hn⟩) (iblk m c 1 ⟨0, hn⟩) (iblk m c 2 ⟨0, hn⟩)) (iblk m c 3 ⟨0, hn⟩)
    exact Pieces.out_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩)
  · have hpos : 0 < t.val := Nat.pos_of_ne_zero fun hz => h0 (by rw [hz])
    have hprev : (outsAt0 m c (t.val - 1) (Nat.lt_of_le_of_lt (Nat.sub_le _ _) t.isLt)).2 = table m c :=
      scratch_eq m c ⟨t.val - 1, Nat.lt_of_le_of_lt (Nat.sub_le _ _) t.isLt⟩
    rw [outsAt0_B m c t h0]
    dsimp only
    rw [hprev]
    exact Pieces.out_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (table m c)

end Cert.KernelIdeal.Carry

end
-- ==== Proof.Spec.lean ====
/-
  The layer as one function of its five argument arrays, index by index, on the extended reals:

    hidden n o  = (∑ d, seq[0, n, d] · W[o, d]) + b[o]            (the linear map, one row of features per node)
    mixed  i o  = ∑ j, adj[0, i, j] · hidden j o                  (every node gathers its neighbours' rows)
    layer  i    = leak a[0] (mixed i₁ i₂)                          (s if s ≥ 0, else a · s)

  Both programs compute exactly this; no law of arithmetic is needed to join them, only the reading of each
  operation at an index.
-/
import Idealize.ShloMosaic.PureOps.Ideal
import Idealize.ShloMosaic.Lib.ValueIdx

noncomputable section

open scoped BigOperators

namespace Gcn

open Idealize.ShloMosaic Idealize.ShloMosaic.ValueIdx

/-- Row `n` of the linear map: the node's features against row `o` of the weights, plus the bias. -/
def hidden (seq : (⟨3, ![1, 10000, 128]⟩ : Shape).Idx → Ideal .f32) (W : (⟨2, ![128, 128]⟩ : Shape).Idx → Ideal .f32)
    (b : (⟨1, ![128]⟩ : Shape).Idx → Ideal .f32) (n : Fin 10000) (o : Fin 128) : Ideal .f32 :=
  (∑ d : Fin 128, seq (ix3 (0 : Fin 1) n d) * W (ix2 o d)) + b (ix1 o)

/-- Node `i`'s aggregate over all nodes `j`, weighted by the dense adjacency. -/
def mixed (seq : (⟨3, ![1, 10000, 128]⟩ : Shape).Idx → Ideal .f32) (adj : (⟨3, ![1, 10000, 10000]⟩ : Shape).Idx → Ideal .f32)
    (W : (⟨2, ![128, 128]⟩ : Shape).Idx → Ideal .f32) (b : (⟨1, ![128]⟩ : Shape).Idx → Ideal .f32)
    (i : Fin 10000) (o : Fin 128) : Ideal .f32 :=
  ∑ j : Fin 10000, adj (ix3 (0 : Fin 1) i j) * hidden seq W b j o

/-- The leaky rectifier with slope `α` on the negative side. -/
def leak (α s : Ideal .f32) : Ideal .f32 :=
  Scalar.select (FloatOps.cmpf .oge s (FloatOps.ofBits .f32 0x00000000#32)) s (α * s)

/-- The whole layer. -/
def layer (seq : (⟨3, ![1, 10000, 128]⟩ : Shape).Idx → Ideal .f32) (adj : (⟨3, ![1, 10000, 10000]⟩ : Shape).Idx → Ideal .f32)
    (W : (⟨2, ![128, 128]⟩ : Shape).Idx → Ideal .f32) (b : (⟨1, ![128]⟩ : Shape).Idx → Ideal .f32)
    (a : (⟨1, ![1]⟩ : Shape).Idx → Ideal .f32) : (⟨3, ![1, 10000, 128]⟩ : Shape).Idx → Ideal .f32 :=
  fun i => leak (a (ix1 (0 : Fin 1))) (mixed seq adj W b (i 1) (i 2))

end Gcn

end
-- ==== Proof.Payload.lean ====
/-
  The body's two payloads read at an index, on the extended reals.

  The first payload is the table of hidden rows: the matrix product of the features with the transposed weights,
  into a zero accumulator, plus the bias row put on every row; the narrowing to the scratch's format is the
  identity on the extended reals. The second payload is the rectified product of a block of adjacency rows with
  the table. Each product is a plain sum over its one contracted axis.
-/
import proofs.«138809_g11579231830147_cont_sun_c4_469_26_alg».proof.Proof.Gen.KernelIdeal.Skeleton
import proofs.«138809_g11579231830147_cont_sun_c4_469_26_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The contraction of the linear map: axis 1 of the features against axis 1 of the weights. -/
abbrev DW := dot_S10000x128_S128x128_S10000x128_1_1_0_0_n_n
/-- The contraction of the aggregation: axis 1 of the adjacency rows against axis 0 of the table. -/
abbrev DA := dot_S200x10000_S10000x128_S200x128_1_0_0_1_n_n

theorem dw_lhs0 (i : S10000x128.Idx) (q : DW.contr.Idx) : (DW.lhsIdx i q 0).val = (i 0).val := by
  unfold DotDims.lhsIdx
  rw [dif_neg (show ¬(0 : Fin S10000x128.rank) ∈ DW.lhsBatch by decide), dif_pos (show (0 : Fin S10000x128.rank) ∈ DW.lhsNonContracting by decide)]
  rfl
theorem dw_lhs1 (i : S10000x128.Idx) (q : DW.contr.Idx) : (DW.lhsIdx i q 1).val = (q ⟨0, by decide⟩).val :=
  DW.lhsIdx_val_of_single rfl i q
theorem dw_rhs0 (i : S10000x128.Idx) (q : DW.contr.Idx) : (DW.rhsIdx i q 0).val = (i 1).val := by
  unfold DotDims.rhsIdx
  rw [dif_neg (show ¬(0 : Fin S128x128.rank) ∈ DW.rhsBatch by decide), dif_pos (show (0 : Fin S128x128.rank) ∈ DW.rhsNonContracting by decide)]
  rfl
theorem dw_rhs1 (i : S10000x128.Idx) (q : DW.contr.Idx) : (DW.rhsIdx i q 1).val = (q ⟨0, by decide⟩).val :=
  DW.rhsIdx_val_of_single rfl i q

theorem da_lhs0 (i : S200x128.Idx) (q : DA.contr.Idx) : (DA.lhsIdx i q 0).val = (i 0).val := by
  unfold DotDims.lhsIdx
  rw [dif_neg (show ¬(0 : Fin S200x10000.rank) ∈ DA.lhsBatch by decide), dif_pos (show (0 : Fin S200x10000.rank) ∈ DA.lhsNonContracting by decide)]
  rfl
theorem da_lhs1 (i : S200x128.Idx) (q : DA.contr.Idx) : (DA.lhsIdx i q 1).val = (q ⟨0, by decide⟩).val :=
  DA.lhsIdx_val_of_single rfl i q
theorem da_rhs0 (i : S200x128.Idx) (q : DA.contr.Idx) : (DA.rhsIdx i q 0).val = (q ⟨0, by decide⟩).val :=
  DA.rhsIdx_val_of_single rfl i q
theorem da_rhs1 (i : S200x128.Idx) (q : DA.contr.Idx) : (DA.rhsIdx i q 1).val = (i 1).val := by
  unfold DotDims.rhsIdx
  rw [dif_neg (show ¬(1 : Fin S10000x128.rank) ∈ DA.rhsBatch by decide), dif_pos (show (1 : Fin S10000x128.rank) ∈ DA.rhsNonContracting by decide)]
  rfl

/-- The linear map into a zero accumulator: entry (n, o) is the sum over the feature axis. -/
theorem linear_apply (x : FVec Ideal S10000x128 .f32) (w : FVec Ideal S128x128 .f32) (n : Fin 10000) (o : Fin 128) :
    matmul DW none x w (constant (F := Ideal) S10000x128 .f32 0x00000000#32) (ix2 n o)
      = ∑ d : Fin 128, x (ix2 n d) * w (ix2 o d) := by
  simp only [matmul]
  rw [Ideal.matmul_constant_zero_apply, ← Equiv.sum_comp (contrEquiv1 DW 128 rfl rfl).symm]
  refine Finset.sum_congr rfl fun k _ => ?_
  have hk := contrEquiv1_symm_val DW 128 rfl rfl k
  have el : DW.lhsIdx (ix2 n o) ((contrEquiv1 DW 128 rfl rfl).symm k) = ix2 n k := funext fun a => Fin.ext (by
    match a with
    | ⟨0, _⟩ => exact dw_lhs0 _ _
    | ⟨1, _⟩ => exact (dw_lhs1 _ _).trans hk)
  have er : DW.rhsIdx (ix2 n o) ((contrEquiv1 DW 128 rfl rfl).symm k) = ix2 o k := funext fun a => Fin.ext (by
    match a with
    | ⟨0, _⟩ => exact dw_rhs0 _ _
    | ⟨1, _⟩ => exact (dw_rhs1 _ _).trans hk)
  rw [el, er]

/-- The aggregation into a zero accumulator: entry (r, o) is the sum over all nodes. -/
theorem aggregate_apply (x : FVec Ideal S200x10000 .bf16) (h : FVec Ideal S10000x128 .bf16) (r : Fin 200) (o : Fin 128) :
    matmul DA none x h (constant (F := Ideal) S200x128 .f32 0x00000000#32) (ix2 r o)
      = ∑ j : Fin 10000, x (ix2 r j) * h (ix2 j o) := by
  simp only [matmul]
  rw [Ideal.matmul_constant_zero_apply, ← Equiv.sum_comp (contrEquiv1 DA 10000 rfl rfl).symm]
  refine Finset.sum_congr rfl fun k _ => ?_
  have hk := contrEquiv1_symm_val DA 10000 rfl rfl k
  have el : DA.lhsIdx (ix2 r o) ((contrEquiv1 DA 10000 rfl rfl).symm k) = ix2 r k := funext fun a => Fin.ext (by
    match a with
    | ⟨0, _⟩ => exact da_lhs0 _ _
    | ⟨1, _⟩ => exact (da_lhs1 _ _).trans hk)
  have er : DA.rhsIdx (ix2 r o) ((contrEquiv1 DA 10000 rfl rfl).symm k) = ix2 k o := funext fun a => Fin.ext (by
    match a with
    | ⟨0, _⟩ => exact (da_rhs0 _ _).trans hk
    | ⟨1, _⟩ => exact da_rhs1 _ _)
  rw [el, er]

/-- The bias row put on every row. -/
theorem bias_apply (b : FVec Ideal S1x128 .f32) (n : Fin 10000) (o : Fin 128) :
    broadcastTo S10000x128 b broadcasts_S1x128_S10000x128 (ix2 n o) = b (ix2 (0 : Fin 1) o) :=
  broadcastTo_apply b broadcasts_S1x128_S10000x128 (ix2 n o) (ix2 (0 : Fin 1) o) (fun a => match a with
    | ⟨0, _⟩ => by show (0 : Nat) = if (1 : Nat) = 1 then 0 else _; rw [if_pos rfl]
    | ⟨1, _⟩ => by show o.val = if (128 : Nat) = 1 then 0 else o.val; rw [if_neg (by decide)])

/-- The slope, the one entry of its block. -/
theorem slope_apply (a : FVec Ideal S1x1 .f32) : extractAt ![0, 0] a inpos_S1x1_p0_0 = a (ix2 (0 : Fin 1) (0 : Fin 1)) :=
  congrArg a (funext fun d => by match d with | ⟨0, _⟩ => rfl | ⟨1, _⟩ => rfl)

/-- THE TABLE at (n, o): the hidden row of node `n`, feature `o`. -/
theorem table_apply (x : Vec Ideal S10000x128 .f32) (w : Vec Ideal S128x128 .f32) (b : Vec Ideal S1x128 .f32)
    (n : Fin 10000) (o : Fin 128) :
    k0_pay1 (F := Ideal) x w b (ix2 n o) = (∑ d : Fin 128, x (ix2 n d) * w (ix2 o d)) + b (ix2 (0 : Fin 1) o) := by
  unfold k0_pay1
  simp only [shapeCast_self]
  show matmul DW none x w (constant (F := Ideal) S10000x128 .f32 0x00000000#32) (ix2 n o)
    + broadcastTo S10000x128 b broadcasts_S1x128_S10000x128 (ix2 n o) = _
  rw [linear_apply, bias_apply]

/-- THE OUTPUT BLOCK at (r, o): the aggregate of row `r` of the adjacency block against column `o` of the table, rectified. -/
theorem block_apply (x : Vec Ideal S200x10000 .f32) (h : Vec Ideal S10000x128 .bf16) (a : Vec Ideal S1x1 .f32)
    (r : Fin 200) (o : Fin 128) :
    k0_pay2 (F := Ideal) x h a (ix2 r o)
      = Gcn.leak (a (ix2 (0 : Fin 1) (0 : Fin 1))) (∑ j : Fin 10000, x (ix2 r j) * h (ix2 j o)) := by
  unfold k0_pay2
  simp only [shapeCast_self]
  show Scalar.select (FloatOps.cmpf .oge (matmul DA none (x : FVec Ideal S200x10000 .bf16) h (constant (F := Ideal) S200x128 .f32 0x00000000#32) (ix2 r o)) (FloatOps.ofBits .f32 0x00000000#32))
      (matmul DA none (x : FVec Ideal S200x10000 .bf16) h (constant (F := Ideal) S200x128 .f32 0x00000000#32) (ix2 r o))
      (extractAt ![0, 0] a inpos_S1x1_p0_0 * matmul DA none (x : FVec Ideal S200x10000 .bf16) h (constant (F := Ideal) S200x128 .f32 0x00000000#32) (ix2 r o)) = _
  rw [aggregate_apply, slope_apply]
  rfl

end Cert.KernelIdeal.Payload

end
-- ==== Proof.Blocks.lean ====
/-
  What the windows' blocks read.

  Before the region the host only re-lays the arguments: the features and the adjacency lose their leading unit
  axis, the bias and the slope gain one. The features, the weights, the bias and the slope are staged whole (block
  index (0, 0) at every point); the adjacency is staged 200 rows at a time, point `t` reading rows
  200·t … 200·t + 199 in full; the result is written back the same way.
-/
import proofs.«138809_g11579231830147_cont_sun_c4_469_26_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps, decided over the grid: four windows never move, the adjacency's and the result's
    row-block index is the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The arrays as the region finds them -/

theorem found_seq (c : Dev nD) : (V m c main_v0 : S10000x128.Idx → Elt F .f32)
    = shapeCast S10000x128 (m ((c : Thread nD τ).loc main_arg0)) shapeCasts_S1x10000x128_S10000x128 := by
  show StableHlo.after hostOps0 (fun b => m (c, b)) (Proc.devRef .tc main_v0) = _
  after_results; rfl

theorem found_adj (c : Dev nD) : (V m c main_v1 : S10000x10000.Idx → Elt F .f32)
    = shapeCast S10000x10000 (m ((c : Thread nD τ).loc main_arg1)) shapeCasts_S1x10000x10000_S10000x10000 := by
  show StableHlo.after hostOps0 (fun b => m (c, b)) (Proc.devRef .tc main_v1) = _
  after_results; rfl

theorem found_bias (c : Dev nD) : (V m c main_v2 : S1x128.Idx → Elt F .f32)
    = shapeCast S1x128 (m ((c : Thread nD τ).loc main_arg3)) shapeCasts_S128_S1x128 := by
  show StableHlo.after hostOps0 (fun b => m (c, b)) (Proc.devRef .tc main_v2) = _
  after_results; rfl

theorem found_slope (c : Dev nD) : (V m c main_v3 : S1x1.Idx → Elt F .f32)
    = shapeCast S1x1 (m ((c : Thread nD τ).loc main_arg4)) shapeCasts_S1_S1x1 := by
  show StableHlo.after hostOps0 (fun b => m (c, b)) (Proc.devRef .tc main_v3) = _
  after_results; rfl

/-! ## The blocks, entry by entry -/

/-- The features' block is the whole re-laid array: entry (n, d) is the argument's (0, n, d). -/
theorem seq_read (c : Dev nD) (t : Fin cfg0.N) (n : Fin 10000) (d : Fin 128) :
    (iblk m c 0 t : Vec F S10000x128 .f32) (ix2 n d) = m ((c : Thread nD τ).loc main_arg0) (ix3 (0 : Fin 1) n d) := by
  obtain ⟨e0, e1, -⟩ := idx_facts t
  unfold iblk
  rw [View.read_apply]
  show V m c main_v0 _ = _
  rw [found_seq]
  refine Eq.trans ?_ (shapeCast_1ab_ab_apply (m ((c : Thread nD τ).loc main_arg0)) shapeCasts_S1x10000x128_S10000x128 n d)
  refine congrArg _ (funext fun a => Fin.ext ?_)
  match a with
  | ⟨0, _⟩ => show win0_0.index t (0 : Fin 2) * 10000 + 1 * n.val = n.val; omega
  | ⟨1, _⟩ => show win0_0.index t (1 : Fin 2) * 128 + 1 * d.val = d.val; omega

/-- The weights' block is the whole argument. -/
theorem weight_read (c : Dev nD) (t : Fin cfg0.N) (o : Fin 128) (d : Fin 128) :
    (iblk m c 1 t : Vec F S128x128 .f32) (ix2 o d) = m ((c : Thread nD τ).loc main_arg2) (ix2 o d) := by
  obtain ⟨-, -, e0, e1, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 128 + 1 * o.val = o.val; omega
  | ⟨1, _⟩ => show win0_1.index t (1 : Fin 2) * 128 + 1 * d.val = d.val; omega

/-- The bias row's block is the whole re-laid vector: entry (0, o) is the argument's o. -/
theorem bias_read (c : Dev nD) (t : Fin cfg0.N) (o : Fin 128) :
    (iblk m c 2 t : Vec F S1x128 .f32) (ix2 (0 : Fin 1) o) = m ((c : Thread nD τ).loc main_arg3) (ix1 o) := by
  obtain ⟨-, -, -, -, e0, e1, -⟩ := idx_facts t
  unfold iblk
  rw [View.read_apply]
  show V m c main_v2 _ = _
  rw [found_bias]
  refine Eq.trans ?_ (shapeCast_a_1a_apply (m ((c : Thread nD τ).loc main_arg3)) shapeCasts_S128_S1x128 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * o.val = o.val; omega

/-- The slope's block is the one re-laid entry. -/
theorem slope_read (c : Dev nD) (t : Fin cfg0.N) :
    (iblk m c 3 t : Vec F S1x1 .f32) (ix2 (0 : Fin 1) (0 : Fin 1)) = m ((c : Thread nD τ).loc main_arg4) (ix1 (0 : Fin 1)) := by
  obtain ⟨-, -, -, -, -, -, e0, e1, -⟩ := idx_facts t
  unfold iblk
  rw [View.read_apply]
  show V m c main_v3 _ = _
  rw [found_slope]
  refine Eq.trans ?_ (shapeCast_a_1a_apply (m ((c : Thread nD τ).loc main_arg4)) shapeCasts_S1_S1x1 (0 : Fin 1) (0 : Fin 1))
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-- Row `r` of point `t`'s adjacency block is row 200·t + r of the argument, in full. -/
theorem adj_read (c : Dev nD) (t : Fin cfg0.N) (r : Fin 200) (j : Fin 10000) (i : Fin 10000) (hi : i.val = 200 * t.val + r.val) :
    (iblk m c 4 t : Vec F S200x10000 .f32) (ix2 r j) = m ((c : Thread nD τ).loc main_arg1) (ix3 (0 : Fin 1) i j) := by
  obtain ⟨-, -, -, -, -, -, -, -, e0, e1, -⟩ := idx_facts t
  unfold iblk
  rw [View.read_apply]
  show V m c main_v1 _ = _
  rw [found_adj]
  refine Eq.trans ?_ (shapeCast_1ab_ab_apply (m ((c : Thread nD τ).loc main_arg1)) shapeCasts_S1x10000x10000_S10000x10000 i j)
  refine congrArg _ (funext fun a => Fin.ext ?_)
  match a with
  | ⟨0, _⟩ => show win0_4.index t (0 : Fin 2) * 200 + 1 * r.val = i.val; omega
  | ⟨1, _⟩ => show win0_4.index t (1 : Fin 2) * 10000 + 1 * j.val = j.val; omega

end Cert.KernelIdeal.Blocks

end
-- ==== Proof.KernelValue.lean ====
/-
  The kernel's result array, on the extended reals.

  Every entry of the table in the scratch is a hidden row entry of the layer; every entry of the block a point
  writes back is the layer's value at (row 200·t + r, feature o); the fifty row blocks tile the 10000 × 128
  result, so after the region it holds the layer's values everywhere; the host then only gives it back its
  leading unit axis.
-/
import proofs.«138809_g11579231830147_cont_sun_c4_469_26_alg».proof.Proof.Carry
import proofs.«138809_g11579231830147_cont_sun_c4_469_26_alg».proof.Proof.Payload
import proofs.«138809_g11579231830147_cont_sun_c4_469_26_alg».proof.Proof.Blocks

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The table's entry (n, o) is the hidden row of node `n` at feature `o`. -/
theorem table_entry (c : Dev nD) (n : Fin 10000) (o : Fin 128) :
    Carry.table m c (ix2 n o) = Gcn.hidden (m ((c : Thread nD τ).loc main_arg0)) (m ((c : Thread nD τ).loc main_arg2)) (m ((c : Thread nD τ).loc main_arg3)) n o := by
  unfold Carry.table
  refine (Payload.table_apply (iblk m c 0 ⟨0, Carry.zero_lt_N⟩) (iblk m c 1 ⟨0, Carry.zero_lt_N⟩) (iblk m c 2 ⟨0, Carry.zero_lt_N⟩) n o).trans ?_
  unfold Gcn.hidden
  refine congrArg₂ (· + ·) (Finset.sum_congr rfl fun d _ => ?_) (Blocks.bias_read m c _ o)
  exact congrArg₂ (· * ·) (Blocks.seq_read m c _ n d) (Blocks.weight_read m c _ o d)

/-- The layer on the kernel's own 10000 × 128 result array. -/
def rows (c : Dev nD) : S10000x128.Idx → Ideal .f32 := fun i =>
  Gcn.leak ((m ((c : Thread nD τ).loc main_arg4)) (ix1 (0 : Fin 1)))
    (Gcn.mixed (m ((c : Thread nD τ).loc main_arg0)) (m ((c : Thread nD τ).loc main_arg1)) (m ((c : Thread nD τ).loc main_arg2)) (m ((c : Thread nD τ).loc main_arg3)) (i 0) (i 1))

/-- Entry (r, o) of the block point `t` writes back is the layer at row 200·t + r, feature o. -/
theorem block_entry (c : Dev nD) (t : Fin cfg0.N) (r : Fin 200) (o : Fin 128) (i : Fin 10000) (o' : Fin 128)
    (hi : i.val = 200 * t.val + r.val) (ho : o'.val = o.val) :
    k0_pay2 (F := Ideal) (iblk m c 4 t) (Carry.table m c) (iblk m c 3 t) (ix2 r o)
      = Gcn.leak ((m ((c : Thread nD τ).loc main_arg4)) (ix1 (0 : Fin 1)))
          (Gcn.mixed (m ((c : Thread nD τ).loc main_arg0)) (m ((c : Thread nD τ).loc main_arg1)) (m ((c : Thread nD τ).loc main_arg2)) (m ((c : Thread nD τ).loc main_arg3)) i o') := by
  obtain rfl : o' = o := Fin.ext ho
  refine (Payload.block_apply (iblk m c 4 t) (Carry.table m c) (iblk m c 3 t) r o').trans ?_
  rw [Blocks.slope_read]
  unfold Gcn.mixed
  refine congrArg _ (Finset.sum_congr rfl fun j _ => ?_)
  exact congrArg₂ (· * ·) (Blocks.adj_read m c t r j i hi) (table_entry m c j o')

/-- WHAT POINT `t` WRITES BACK is block `t` of the layer's rows. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5, Carry.out_eq]
  obtain ⟨-, -, -, -, -, -, -, -, -, -, e0, e1⟩ := Blocks.idx_facts t
  funext y
  obtain ⟨r, o, rfl⟩ : ∃ (r : Fin 200) (o : Fin 128), y = ix2 r o := ⟨y 0, y 1, eq_ix2 y⟩
  rw [View.read_apply]
  show k0_pay2 (F := Ideal) (iblk m c 4 t) (Carry.table m c) (iblk m c 3 t) (ix2 r o)
    = rows m c (((cfg0.win 5).blk t).view.emb (ix2 r o))
  unfold rows
  exact block_entry m c t r o _ _
    (show win0_5.index t (0 : Fin 2) * 200 + 1 * r.val = 200 * t.val + r.val by omega)
    (show win0_5.index t (1 : Fin 2) * 128 + 1 * o.val = o.val by omega)

/-- An index of the result is in point `t`'s block iff each coordinate is in the block's range on its axis. -/
theorem mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v4).slice (win0_5.rect t)).set ↔ _
  rw [View.set_slice_whole, Rect.mem_set_unit]
  exact Iff.rfl

/-- The fifty row blocks tile the result: row `i₀` is in the block of point `i₀ / 200`. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := N_0
  have hlt : (i 0).val / 200 < cfg0.N := by rw [hN]; omega
  refine ⟨⟨(i 0).val / 200, hlt⟩, flush0_5 _, ?_⟩
  obtain ⟨-, -, -, -, -, -, -, -, -, -, e0, e1⟩ := Blocks.idx_facts ⟨(i 0).val / 200, hlt⟩
  have e0' : win0_5.index ⟨(i 0).val / 200, hlt⟩ (0 : Fin 2) = (i 0).val / 200 := e0
  rw [mem_blk]
  intro a
  match a with
  | ⟨0, _⟩ =>
    show win0_5.index ⟨(i 0).val / 200, hlt⟩ (0 : Fin 2) * 200 ≤ (i 0).val ∧ (i 0).val < win0_5.index ⟨(i 0).val / 200, hlt⟩ (0 : Fin 2) * 200 + 200
    omega
  | ⟨1, _⟩ =>
    show win0_5.index ⟨(i 0).val / 200, hlt⟩ (1 : Fin 2) * 128 ≤ (i 1).val ∧ (i 1).val < win0_5.index ⟨(i 0).val / 200, hlt⟩ (1 : Fin 2) * 128 + 128
    omega

/-- After the region the result array holds the layer's rows. -/
theorem final (c : Dev nD) : (dats m 0 c).arrAt 5 cfg0.N = rows m c :=
  (dats m 0 c).arrAt_eq_of_cover 5 (rows m c) (fun t _ => flushed_eq m c t) (cover)

/-- The host's last line gives the result its leading unit axis back: entry (0, i, o) is row i, feature o. -/
theorem tail_eq (c : Dev nD) :
    Pipeline.afterTail₀ cfgs (dats m) 0 (V0 m) [hostOps1] c main_v5
      = Gcn.layer (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4) = rows m c from
    (Pipeline.withArrays_arr spec0 launch0.win.arr_inj c _ _ 5).trans (final m c)]
  funext i
  obtain ⟨u, n, o, rfl⟩ : ∃ (u : Fin 1) (n : Fin 10000) (o : Fin 128), i = ix3 u n o := ⟨i 0, i 1, i 2, eq_ix3 i⟩
  exact shapeCast_ab_1ab_apply (rows m c) shapeCasts_S10000x128_S1x10000x128 u n o

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v5)
        = Gcn.layer (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c))),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KValue

end
-- ==== Proof.RefSide.lean ====
/-
  The reference's result, read index by index: its two contractions are the two sums of the layer, its
  broadcasts put the bias on every row and the slope on every entry, and its comparison and selection are
  the leaky rectifier.
-/
import proofs.«138809_g11579231830147_cont_sun_c4_469_26_alg».proof.Proof.Gen.ReferenceIdeal.Read
import proofs.«138809_g11579231830147_cont_sun_c4_469_26_alg».proof.Proof.Spec

noncomputable section

open scoped BigOperators

namespace Cert.ReferenceIdeal.RefValue

open Cert.ReferenceIdeal Cert.ReferenceIdeal.Read Idealize.ShloMosaic Idealize.ShloMosaic.ValueIdx

/-- The only index of a one-entry axis. -/
theorem fin1_eq (x : Fin 1) : x = 0 := Fin.ext (by have := x.isLt; omega)

theorem lidx0 (i : S1x10000x128.Idx) (k : Fin 128) : lidx_main_v0 i k = ix3 (0 : Fin 1) (i 1) k :=
  funext fun a => by match a with | ⟨0, _⟩ => exact fin1_eq _ | ⟨1, _⟩ => rfl | ⟨2, _⟩ => rfl

theorem ridx0 (i : S1x10000x128.Idx) (k : Fin 128) : ridx_main_v0 i k = ix2 (i 2) k :=
  funext fun a => by match a with | ⟨0, _⟩ => rfl | ⟨1, _⟩ => rfl

theorem lidx4 (i : S1x10000x128.Idx) (k : Fin 10000) : lidx_main_v4 i k = ix3 (0 : Fin 1) (i 1) k :=
  funext fun a => by match a with | ⟨0, _⟩ => exact fin1_eq _ | ⟨1, _⟩ => rfl | ⟨2, _⟩ => rfl

theorem ridx4_1 (i : S1x10000x128.Idx) (k : Fin 10000) : ridx_main_v4 i k 1 = k := rfl
theorem ridx4_2 (i : S1x10000x128.Idx) (k : Fin 10000) : ridx_main_v4 i k 2 = i 2 := rfl

theorem bias_idx (i : S1x10000x128.Idx) : idx_main_v1 (idx_main_v2 i) = ix1 (i 2) :=
  funext fun a => by match a with | ⟨0, _⟩ => rfl

theorem slope_idx (i : S1x10000x128.Idx) : idx_main_v7 (idx_main_v8 i) = ix1 (0 : Fin 1) :=
  funext fun a => by match a with | ⟨0, _⟩ => rfl

/-- The linear map's row, as the reference computes it. -/
theorem linear_apply (x0 : (⟨S1x10000x128, .f32⟩ : BufTy).Contents (Elt Ideal)) (x2 : (⟨S128x128, .f32⟩ : BufTy).Contents (Elt Ideal))
    (x3 : (⟨S128, .f32⟩ : BufTy).Contents (Elt Ideal)) (i : S1x10000x128.Idx) :
    val_main_v3 (F := Ideal) x0 x2 x3 i = Gcn.hidden x0 x2 x3 (i 1) (i 2) := by
  rw [val_main_v3_apply, val_main_v0_apply, val_main_v2_apply, val_main_v1_apply, bias_idx]
  simp only [lidx0, ridx0]
  rfl

/-- The aggregate, as the reference computes it. -/
theorem mixed_apply (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal)) (i : S1x10000x128.Idx) :
    val_main_v4 (F := Ideal) x0 x1 x2 x3 i = Gcn.mixed x0 x1 x2 x3 (i 1) (i 2) := by
  rw [val_main_v4_apply]
  simp only [linear_apply, lidx4, ridx4_1, ridx4_2]
  rfl

/-- The reference's result is the layer. -/
theorem result_eq (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S1, .f32⟩ : BufTy).Contents (Elt Ideal)) :
    val_main_v10 (F := Ideal) x0 x1 x2 x3 x4 = Gcn.layer x0 x1 x2 x3 x4 := by
  funext i
  rw [val_main_v10_apply, val_main_v6_apply, val_main_v9_apply, val_main_v8_apply, val_main_v7_apply, val_main_v5_apply,
    val_main_cst_apply, mixed_apply, slope_idx]
  rfl

end Cert.ReferenceIdeal.RefValue

end
-- ==== Proof.lean ====
/-
  A dense graph-convolution layer: out = leak_a (adj · (seq · Wᵀ + b)), for 10000 nodes with 128 features.

  The kernel computes the table of hidden rows seq · Wᵀ + b once, at the first of its fifty grid points, keeps it
  in a scratch buffer, and at every point multiplies 200 rows of the adjacency against it and applies the leaky
  rectifier; the reference does the same with two whole contractions on the host. On the extended reals the
  narrowing of the table and of the adjacency rows to a shorter format is the identity, each matrix product is the
  plain sum over its contracted axis, and the two programs are the same function of their arguments, entry by
  entry (Proof/Spec.lean states it; Proof/RefSide.lean reads the reference as it, Proof/KernelValue.lean the
  kernel). No law of arithmetic beyond reading each operation at an index is used, so the precondition is never
  opened. The idealization rewrote no operation of the kernel, so there is nothing to preserve.
-/
import proofs.«138809_g11579231830147_cont_sun_c4_469_26_alg».proof.Defs
import proofs.«138809_g11579231830147_cont_sun_c4_469_26_alg».proof.Proof.Gen.Kernel
import proofs.«138809_g11579231830147_cont_sun_c4_469_26_alg».proof.Proof.Gen.Kernel.Frame
import proofs.«138809_g11579231830147_cont_sun_c4_469_26_alg».proof.Proof.Gen.KernelIdeal
import proofs.«138809_g11579231830147_cont_sun_c4_469_26_alg».proof.Proof.Gen.KernelIdeal.Frame
import proofs.«138809_g11579231830147_cont_sun_c4_469_26_alg».proof.Proof.Gen.ReferenceIdeal
import proofs.«138809_g11579231830147_cont_sun_c4_469_26_alg».proof.Proof.Gen.ReferenceIdeal.Run
import proofs.«138809_g11579231830147_cont_sun_c4_469_26_alg».proof.Proof.Gen.ReferenceIdeal.Read
import proofs.«138809_g11579231830147_cont_sun_c4_469_26_alg».proof.Proof.Gen.Pre_finite_inputs
import proofs.«138809_g11579231830147_cont_sun_c4_469_26_alg».proof.Proof.KernelValue
import proofs.«138809_g11579231830147_cont_sun_c4_469_26_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the layer of their (agreeing) arguments. -/
theorem algebraic : Cert.algebraic_KernelIdeal_ReferenceIdeal := by
  intro m ρ m' ρ' _ hagree
  refine ⟨fun c => Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
